-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S600000 : Shape := ⟨1, ![600000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : IVec S50000 32) (main_arg1 : IVec S600000 32) (main_arg2 : IVec S600000 32) (main_arg3 : FVec F S600000 .f32) (main_arg4 : FVec F S50000x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S600000 .f32 := Host.absf main_arg3
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S50000x128 .f32 := Host.absf main_arg4
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_v13 main_v16
-- ==== Kernel.lean ====
abbrev S50000 : Shape := ⟨1, ![50000]⟩
abbrev S600000 : Shape := ⟨1, ![600000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 76
  | .vmem => 18
  | .smem => 0
  | _ => 0

abbrev bufTy : (tb : Table) → Fin (tcTables nBuf tb) → BufTy
  | .hbm, ⟨0, _⟩ => ⟨S50000, .i32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S50000x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x1, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S128x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S600000x1, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S128x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S50000x1_S50000x128_1_0_n_n_0_1_1128_wf : GatherDims.WF S50000x128 S50000x1 S50000x128 [1] [0] [] [0] [] 1 ![1, 128]
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000 : Shape := ⟨1, ![50000]⟩
abbrev S600000 : Shape := ⟨1, ![600000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S50000x1 : Shape := ⟨2, ![50000, 1]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S50000, .i32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S50000x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S600000x1, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S_, .f32⟩
  | .hbm, ⟨37, _⟩ => ⟨S600000, .f32⟩
  | .hbm, ⟨38, _⟩ => ⟨S_, .f32⟩
  | .hbm, ⟨39, _⟩ => ⟨S50000, .f32⟩
  | .hbm, ⟨40, _⟩ => ⟨S600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S600000x1, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S_, .f32⟩
  | .hbm, ⟨76, _⟩ => ⟨S600000, .f32⟩
  | .hbm, ⟨77, _⟩ => ⟨S_, .f32⟩
  | .hbm, ⟨78, _⟩ => ⟨S50000, .f32⟩
  | .hbm, ⟨79, _⟩ => ⟨S600000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S128x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S128x128, .f32⟩
  | .hbm, ⟨93, _⟩ => ⟨S50000x128, .f32⟩
  | .hbm, ⟨94, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_cst : Ref sig .tc := ⟨.hbm, 56, rfl⟩
abbrev main_call0_v0 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S50000x1_S50000x128_1_0_n_n_0_1_1128_wf : GatherDims.WF S50000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  Two layers of mean-aggregating graph convolution: the arithmetic that the two programs share, stated once.

  One layer maps node features `h` (N × 128) and aggregated neighbour features `n` (N × 128) to
      (h · Ws + b) + n · Wn
  row by row: the entry at row `r`, column `q` is
      (∑ₖ h[r,k] · Ws[k,q] + b[q]) + ∑ₖ n[r,k] · Wn[k,q]      (k over the 128 features),
  with `Ws`, `Wn` the weight matrices as they are multiplied (already transposed), the grouping of the three
  summands exactly this one. The first layer is followed by max(·, 0); the second is not.
  The entry depends on row `r` of `h` and of `n` only, so a block of rows of the result is the same function of
  the same block of rows of `h` and `n`: the number of rows is a parameter.
-/
import Idealize.ShloMosaic.Lib.ValueIdx
import Idealize.ShloMosaic.PureOps.Ideal.Laws

noncomputable section

namespace Cert.Sage

open Idealize.ShloMosaic Idealize.ShloMosaic.ValueIdx

/-- The entry at row `r`, column `q` of `(h · Ws + b) + n · Wn`, over the extended reals. -/
def linAt {R : Nat} (h n : (⟨2, ![R, 128]⟩ : Shape).Idx → EReal) (ws wn : (⟨2, ![128, 128]⟩ : Shape).Idx → EReal)
    (b : (⟨1, ![128]⟩ : Shape).Idx → EReal) (r : Fin R) (q : Fin 128) : EReal :=
  ((∑ k : Fin 128, h (ix2 r k) * ws (ix2 k q)) + b (ix1 q)) + ∑ k : Fin 128, n (ix2 r k) * wn (ix2 k q)

/-- The layer without activation, as an array of `R` rows. -/
def lin {R : Nat} (h n : (⟨2, ![R, 128]⟩ : Shape).Idx → EReal) (ws wn : (⟨2, ![128, 128]⟩ : Shape).Idx → EReal)
    (b : (⟨1, ![128]⟩ : Shape).Idx → EReal) : (⟨2, ![R, 128]⟩ : Shape).Idx → EReal :=
  fun i => linAt h n ws wn b (i 0) (i 1)

/-- The layer followed by max(·, 0) (the zero spelt as the float word both programs print). -/
def linRelu {R : Nat} (h n : (⟨2, ![R, 128]⟩ : Shape).Idx → EReal) (ws wn : (⟨2, ![128, 128]⟩ : Shape).Idx → EReal)
    (b : (⟨1, ![128]⟩ : Shape).Idx → EReal) : (⟨2, ![R, 128]⟩ : Shape).Idx → EReal :=
  fun i => max (linAt h n ws wn b (i 0) (i 1)) (Ideal.ofBits .f32 0x00000000#32)

theorem lin_apply {R : Nat} (h n : (⟨2, ![R, 128]⟩ : Shape).Idx → EReal) (ws wn : (⟨2, ![128, 128]⟩ : Shape).Idx → EReal)
    (b : (⟨1, ![128]⟩ : Shape).Idx → EReal) (r : Fin R) (q : Fin 128) :
    lin h n ws wn b (ix2 r q) = linAt h n ws wn b r q := rfl

theorem linRelu_apply {R : Nat} (h n : (⟨2, ![R, 128]⟩ : Shape).Idx → EReal) (ws wn : (⟨2, ![128, 128]⟩ : Shape).Idx → EReal)
    (b : (⟨1, ![128]⟩ : Shape).Idx → EReal) (r : Fin R) (q : Fin 128) :
    linRelu h n ws wn b (ix2 r q) = max (linAt h n ws wn b r q) (Ideal.ofBits .f32 0x00000000#32) := rfl

/-- The layer's entry depends on one row of each feature array, one column of each weight matrix and one bias
    entry: arrays that agree there give the same entry (the two feature arrays may have different numbers of rows). -/
theorem linAt_congr {R R' : Nat} (h n : (⟨2, ![R, 128]⟩ : Shape).Idx → EReal) (h' n' : (⟨2, ![R', 128]⟩ : Shape).Idx → EReal)
    (ws wn ws' wn' : (⟨2, ![128, 128]⟩ : Shape).Idx → EReal) (b b' : (⟨1, ![128]⟩ : Shape).Idx → EReal)
    (r : Fin R) (r' : Fin R') (q : Fin 128)
    (hh : ∀ k : Fin 128, h (ix2 r k) = h' (ix2 r' k)) (hn : ∀ k : Fin 128, n (ix2 r k) = n' (ix2 r' k))
    (hws : ∀ k : Fin 128, ws (ix2 k q) = ws' (ix2 k q)) (hwn : ∀ k : Fin 128, wn (ix2 k q) = wn' (ix2 k q))
    (hb : b (ix1 q) = b' (ix1 q)) :
    linAt h n ws wn b r q = linAt h' n' ws' wn' b' r' q := by
  unfold linAt
  have e1 : (∑ k : Fin 128, h (ix2 r k) * ws (ix2 k q)) = ∑ k : Fin 128, h' (ix2 r' k) * ws' (ix2 k q) :=
    Finset.sum_congr rfl fun k _ => by rw [hh k, hws k]
  have e2 : (∑ k : Fin 128, n (ix2 r k) * wn (ix2 k q)) = ∑ k : Fin 128, n' (ix2 r' k) * wn' (ix2 k q) :=
    Finset.sum_congr rfl fun k _ => by rw [hn k, hwn k]
  rw [e1, e2, hb]

end Cert.Sage

end
-- ==== Proof.Payload.lean ====
/-
  What one grid point stores, entry by entry.

  The body of either region loads a block of 5000 rows of the node features `x0` and of the aggregated neighbour
  features `x1`, the two 128 × 128 weight matrices `x2`, `x3` and the bias `x4`, and stores
      (x0 · x2 + b) + x1 · x3          (region 1)          max((x0 · x2 + b) + x1 · x3, 0)     (region 0)
  where each product is a matrix product into a zero accumulator and `b` is the bias laid along every row.
  Over the extended reals a product into a zero accumulator is the plain sum over the 128 contracted features,
  the bias row is `x4` read at the column, and the stored entry at row `p`, column `q` is the layer's entry
  `Cert.Sage.linAt` of the loaded blocks.
-/
import proofs.«130195_j27522150433399_2_alg».proof.Proof.Gen.KernelIdeal.Skeleton
import proofs.«130195_j27522150433399_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Sage

/-- The left operand of the product is read at the output's row. -/
theorem lhs_row (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand of the product is read at the output's column. -/
theorem rhs_col (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of rows times a weight matrix, into a zero accumulator: the entry at `(p, q)` is `∑ₖ x[p,k] · w[k,q]`. -/
theorem matmul_zero_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- The bias, cast to one row and laid along every row, reads at `(p, q)` as the bias at `q`. -/
theorem bias_apply (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- Region 1 stores the layer's entry of its loaded blocks. -/
theorem pay1_apply (x0 x1 : Vec Ideal S5000x128 .f32) (x2 x3 : Vec Ideal S128x128 .f32) (x4 : Vec Ideal S128 .f32)
    (p : Fin 5000) (q : Fin 128) :
    k1_pay1 (F := Ideal) x0 x2 x1 x3 x4 (ix2 p q) = linAt x0 x1 x2 x3 x4 p q := by
  unfold k1_pay1 linAt
  rw [addf_apply, addf_apply, shapeCast_self, shapeCast_self, shapeCast_self, shapeCast_self,
    matmul_zero_apply, matmul_zero_apply, bias_apply]

/-- Region 0 stores the larger of the layer's entry of its loaded blocks and zero. -/
theorem pay0_apply (x0 x1 : Vec Ideal S5000x128 .f32) (x2 x3 : Vec Ideal S128x128 .f32) (x4 : Vec Ideal S128 .f32)
    (p : Fin 5000) (q : Fin 128) :
    k0_pay1 (F := Ideal) x0 x2 x1 x3 x4 (ix2 p q) = max (linAt x0 x1 x2 x3 x4 p q) (Ideal.ofBits .f32 0x00000000#32) := by
  unfold k0_pay1 linAt
  rw [maximumf_apply, addf_apply, addf_apply, shapeCast_self, shapeCast_self, shapeCast_self, shapeCast_self,
    matmul_zero_apply, matmul_zero_apply, bias_apply]
  rfl

end Cert.KernelIdeal.Payload

end
-- ==== Proof.Region0.lean ====
/-
  The first layer's region: from the blocks each grid point writes back to the whole output array.

  The grid has ten points; point `t` takes rows `5000·t … 5000·t + 4999` of the node features and of the aggregated
  neighbour features (all 128 columns), the two weight matrices and the bias whole, and writes back the same rows of
  the output. The stored entry at row `p`, column `q` of the block is the layer's entry of the loaded blocks, and the
  layer's entry at a row reads only that row of the two feature arrays: so the block point `t` writes back is rows
  `5000·t …` of ONE array, the layer followed by max(·, 0) applied to the arrays as the region finds them. The ten blocks tile
  the 50000 rows (row `r` lies in the block of point `r / 5000`), so that array is what the output buffer holds after
  the region. All of this holds for any contents `V` the region is entered with.
-/
import proofs.«130195_j27522150433399_2_alg».proof.Proof.KernelIdealFrameP
import proofs.«130195_j27522150433399_2_alg».proof.Proof.Payload

set_option maxRecDepth 16384

noncomputable section

namespace Cert.KernelIdeal.Region0

open Cert.KernelIdeal Cert.KernelIdeal.Gen Cert.KernelIdeal.GenP Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The output array as one function of the arrays the region is entered with. -/
def out (c : Dev nD) : S50000x128.Idx → EReal :=
  linRelu (V c main_v6) (V c main_v28) (V c main_v29) (V c main_v30) (V c main_arg7)

/-- Where the blocks sit: the two feature windows and the output window move together down the rows, one block per
    point and never sideways; the weights and the bias stay at their one block. Decided over the ten points. -/
theorem placement : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

/-- Every one of the ten row blocks is some point's. -/
theorem every_block : ∀ b : Fin 10, ∃ t : Fin cfg0.N, win0_5.index t = ![b.val, 0] :=
  (by decide +kernel : ∀ b : Fin 10, ∃ t : Fin grid0.N, win0_5.index t = ![b.val, 0])

/-- What point `t` writes back is block `t` of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨e00, e01, e10, e11, e20, e21, e30, e31, e40, e51, e50⟩ := placement t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the row of the array that row `p` of the block is
  let r : Fin 50000 := ⟨win0_5.index t (0 : Fin 2) * 5000 + p.val, by omega⟩
  have e5 : ((cfg0.win 5).blk t).view.emb (ix2 p q) = (ix2 r q : S50000x128.Idx) := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  have e0 : ∀ k : Fin 128, ((cfg0.win 0).blk t).view.emb (ix2 p k) = (ix2 r k : S50000x128.Idx) := fun k => by
    have hk : k.val < 128 := k.isLt
    funext a; apply Fin.ext
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  have e1 : ∀ k : Fin 128, ((cfg0.win 1).blk t).view.emb (ix2 p k) = (ix2 r k : S50000x128.Idx) := fun k => by
    have hk : k.val < 128 := k.isLt
    funext a; apply Fin.ext
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  have e2 : ∀ k : Fin 128, ((cfg0.win 2).blk t).view.emb (ix2 k q) = (ix2 k q : S128x128.Idx) := fun k => by
    have hk : k.val < 128 := k.isLt
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  have e3 : ∀ k : Fin 128, ((cfg0.win 3).blk t).view.emb (ix2 k q) = (ix2 k q : S128x128.Idx) := fun k => by
    have hk : k.val < 128 := k.isLt
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  have e4 : ((cfg0.win 4).blk t).view.emb (ix1 q) = (ix1 q : S128.Idx) := by
    funext a; apply Fin.ext
    match a with
    | ⟨0, _⟩ => show win0_4.index t (0 : Fin 1) * 128 + 1 * q.val = q.val; omega
  show k0_pay1 (F := Ideal) (iblk0 V c 0 t) (iblk0 V c 2 t) (iblk0 V c 1 t) (iblk0 V c 3 t) (iblk0 V c 4 t) (ix2 p q)
      = out V c (((cfg0.win 5).blk t).view.emb (ix2 p q))
  refine (pay0_apply (iblk0 V c 0 t) (iblk0 V c 1 t) (iblk0 V c 2 t) (iblk0 V c 3 t) (iblk0 V c 4 t) p q).trans ?_
  rw [e5]
  show _ = max (linAt (V c main_v6) (V c main_v28) (V c main_v29) (V c main_v30) (V c main_arg7) r q) (Ideal.ofBits .f32 0x00000000#32)
  refine congrArg (max · (Ideal.ofBits .f32 0x00000000#32)) ?_
  refine linAt_congr _ _ _ _ _ _ _ _ _ _ p r q (fun k => ?_) (fun k => ?_) (fun k => ?_) (fun k => ?_) ?_
  · show V c main_v6 (((cfg0.win 0).blk t).view.emb (ix2 p k)) = V c main_v6 (ix2 r k); rw [e0 k]
  · show V c main_v28 (((cfg0.win 1).blk t).view.emb (ix2 p k)) = V c main_v28 (ix2 r k); rw [e1 k]
  · show V c main_v29 (((cfg0.win 2).blk t).view.emb (ix2 k q)) = V c main_v29 (ix2 k q); rw [e2 k]
  · show V c main_v30 (((cfg0.win 3).blk t).view.emb (ix2 k q)) = V c main_v30 (ix2 k q); rw [e3 k]
  · show V c main_arg7 (((cfg0.win 4).blk t).view.emb (ix1 q)) = V c main_arg7 (ix1 q); rw [e4]

/-- A row of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- The ten blocks cover the array: row `r` is in the block of the point whose block index is `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := every_block ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the region the output buffer holds `out` of the arrays the region was entered with. -/
theorem final (c : Dev nD) : (dat0 V c).arrAt 5 cfg0.N = out V c :=
  (dat0 V c).arrAt_eq_of_cover 5 (out V c) (fun t _ => flushed_eq V c t) (cover)

end Cert.KernelIdeal.Region0

end
-- ==== Proof.Region1.lean ====
/-
  The second layer's region: from the blocks each grid point writes back to the whole output array.

  The grid has ten points; point `t` takes rows `5000·t … 5000·t + 4999` of the node features and of the aggregated
  neighbour features (all 128 columns), the two weight matrices and the bias whole, and writes back the same rows of
  the output. The stored entry at row `p`, column `q` of the block is the layer's entry of the loaded blocks, and the
  layer's entry at a row reads only that row of the two feature arrays: so the block point `t` writes back is rows
  `5000·t …` of ONE array, the layer applied to the arrays as the region finds them. The ten blocks tile
  the 50000 rows (row `r` lies in the block of point `r / 5000`), so that array is what the output buffer holds after
  the region. All of this holds for any contents `V` the region is entered with.
-/
import proofs.«130195_j27522150433399_2_alg».proof.Proof.KernelIdealFrameP
import proofs.«130195_j27522150433399_2_alg».proof.Proof.Payload

set_option maxRecDepth 16384

noncomputable section

namespace Cert.KernelIdeal.Region1

open Cert.KernelIdeal Cert.KernelIdeal.Gen Cert.KernelIdeal.GenP Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The output array as one function of the arrays the region is entered with. -/
def out (c : Dev nD) : S50000x128.Idx → EReal :=
  lin (V c main_v31) (V c main_v49) (V c main_v50) (V c main_v51) (V c main_arg10)

/-- Where the blocks sit: the two feature windows and the output window move together down the rows, one block per
    point and never sideways; the weights and the bias stay at their one block. Decided over the ten points. -/
theorem placement : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 9 :=
  (by decide +kernel : ∀ t : Fin grid1.N, _)

/-- Every one of the ten row blocks is some point's. -/
theorem every_block : ∀ b : Fin 10, ∃ t : Fin cfg1.N, win1_5.index t = ![b.val, 0] :=
  (by decide +kernel : ∀ b : Fin 10, ∃ t : Fin grid1.N, win1_5.index t = ![b.val, 0])

/-- What point `t` writes back is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨e00, e01, e10, e11, e20, e21, e30, e31, e40, e51, e50⟩ := placement t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the row of the array that row `p` of the block is
  let r : Fin 50000 := ⟨win1_5.index t (0 : Fin 2) * 5000 + p.val, by omega⟩
  have e5 : ((cfg1.win 5).blk t).view.emb (ix2 p q) = (ix2 r q : S50000x128.Idx) := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 128 + 1 * q.val = q.val; omega
  have e0 : ∀ k : Fin 128, ((cfg1.win 0).blk t).view.emb (ix2 p k) = (ix2 r k : S50000x128.Idx) := fun k => by
    have hk : k.val < 128 := k.isLt
    funext a; apply Fin.ext
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  have e1 : ∀ k : Fin 128, ((cfg1.win 1).blk t).view.emb (ix2 p k) = (ix2 r k : S50000x128.Idx) := fun k => by
    have hk : k.val < 128 := k.isLt
    funext a; apply Fin.ext
    match a with
    | ⟨0, _⟩ => show win1_1.index t (0 : Fin 2) * 5000 + 1 * p.val = win1_5.index t (0 : Fin 2) * 5000 + p.val; omega
    | ⟨1, _⟩ => show win1_1.index t (1 : Fin 2) * 128 + 1 * k.val = k.val; omega
  have e2 : ∀ k : Fin 128, ((cfg1.win 2).blk t).view.emb (ix2 k q) = (ix2 k q : S128x128.Idx) := fun k => by
    have hk : k.val < 128 := k.isLt
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  have e3 : ∀ k : Fin 128, ((cfg1.win 3).blk t).view.emb (ix2 k q) = (ix2 k q : S128x128.Idx) := fun k => by
    have hk : k.val < 128 := k.isLt
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have e4 : ((cfg1.win 4).blk t).view.emb (ix1 q) = (ix1 q : S128.Idx) := by
    funext a; apply Fin.ext
    match a with
    | ⟨0, _⟩ => show win1_4.index t (0 : Fin 1) * 128 + 1 * q.val = q.val; omega
  show k1_pay1 (F := Ideal) (iblk1 V c 0 t) (iblk1 V c 2 t) (iblk1 V c 1 t) (iblk1 V c 3 t) (iblk1 V c 4 t) (ix2 p q)
      = out V c (((cfg1.win 5).blk t).view.emb (ix2 p q))
  refine (pay1_apply (iblk1 V c 0 t) (iblk1 V c 1 t) (iblk1 V c 2 t) (iblk1 V c 3 t) (iblk1 V c 4 t) p q).trans ?_
  rw [e5]
  show _ = linAt (V c main_v31) (V c main_v49) (V c main_v50) (V c main_v51) (V c main_arg10) r q

  refine linAt_congr _ _ _ _ _ _ _ _ _ _ p r q (fun k => ?_) (fun k => ?_) (fun k => ?_) (fun k => ?_) ?_
  · show V c main_v31 (((cfg1.win 0).blk t).view.emb (ix2 p k)) = V c main_v31 (ix2 r k); rw [e0 k]
  · show V c main_v49 (((cfg1.win 1).blk t).view.emb (ix2 p k)) = V c main_v49 (ix2 r k); rw [e1 k]
  · show V c main_v50 (((cfg1.win 2).blk t).view.emb (ix2 k q)) = V c main_v50 (ix2 k q); rw [e2 k]
  · show V c main_v51 (((cfg1.win 3).blk t).view.emb (ix2 k q)) = V c main_v51 (ix2 k q); rw [e3 k]
  · show V c main_arg10 (((cfg1.win 4).blk t).view.emb (ix1 q)) = V c main_arg10 (ix1 q); rw [e4]

/-- A row of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v52).slice (win1_5.rect t)).set ↔ _
  rw [View.set_slice_whole, Rect.mem_set_unit]
  exact Iff.rfl

/-- The ten blocks cover the array: row `r` is in the block of the point whose block index is `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := every_block ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region the output buffer holds `out` of the arrays the region was entered with. -/
theorem final (c : Dev nD) : (dat1 V c).arrAt 5 cfg1.N = out V c :=
  (dat1 V c).arrAt_eq_of_cover 5 (out V c) (fun t _ => flushed_eq V c t) (cover)

end Cert.KernelIdeal.Region1

end
-- ==== Proof.HostFns.lean ====
/-
  The host-side stages both programs share, each named once and never opened.

  Both programs compute, on the host and with the same operations,
    * the embedding lookup: row `ids[r]` of `emb` for every node `r` (a negative index first moved up by 50000);
    * the in-degree: for every node, how many edges end in it (ones added up at `dst`);
    * the mean aggregation of node features `h`: for every edge the row `h[src]` times the edge's weight, those rows
      added up at `dst`, and each node's sum divided by the larger of its in-degree and one;
    * the transpose of a 128 × 128 weight matrix.
  The equivalence never needs what a gather or a scatter-add computes: it needs only that the two programs apply the same
  stages to equal operands. So the stages are functions of their operands here, spelt as the operations are printed.
-/
import proofs.«130195_j27522150433399_2_alg».proof.Proof.Gen.KernelIdeal
import proofs.«130195_j27522150433399_2_alg».proof.Proof.Spec

noncomputable section

namespace Cert.KernelIdeal.HostFns

open Cert.KernelIdeal Cert.KernelIdeal.Facts₀ Cert.KernelIdeal.Facts Idealize.ShloMosaic

variable {F : FTy → Type} [FloatOps F]

/-- Node indices with the negative ones moved up by the number of nodes. -/
def wrapNodes (ids : (⟨S50000, .i32⟩ : BufTy).Contents (Elt F)) : (⟨S50000, .i32⟩ : BufTy).Contents (Elt F) :=
  select (cmpi .slt ids (broadcastInDim S50000 ![] bcast_S_S50000 (constantI S_ 32 0#32)))
    (addi ids (broadcastInDim S50000 ![] bcast_S_S50000 (constantI S_ 32 50000#32))) ids

/-- Edge endpoints with the negative ones moved up by the number of nodes. -/
def wrapEdges (ids : (⟨S600000, .i32⟩ : BufTy).Contents (Elt F)) : (⟨S600000, .i32⟩ : BufTy).Contents (Elt F) :=
  select (cmpi .slt ids (broadcastInDim S600000 ![] bcast_S_S600000 (constantI S_ 32 0#32)))
    (addi ids (broadcastInDim S600000 ![] bcast_S_S600000 (constantI S_ 32 50000#32))) ids

/-- The embedding lookup `emb[ids]`. -/
def lookup (emb : (⟨S50000x128, .f32⟩ : BufTy).Contents (Elt F)) (ids : (⟨S50000, .i32⟩ : BufTy).Contents (Elt F)) :
    (⟨S50000x128, .f32⟩ : BufTy).Contents (Elt F) :=
  Host.gather gather_S50000x128_S50000x1_S50000x128_1_0_n_n_0_1_1128 emb
    (broadcastInDim S50000x1 ![0] bcast_S50000_S50000x1_0 (wrapNodes ids))

/-- The in-degree of every node: ones added up at the edges' destinations. -/
def deg (dst : (⟨S600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ .f32 0x00000000#32))
    (broadcastInDim S600000x1 ![0] bcast_S600000_S600000x1_0 dst)
    (broadcastInDim S600000 ![] bcast_S_S600000 (constant S_ .f32 0x3F800000#32))

/-- The weighted mean of the neighbours' features: `h[src] · w` added up at `dst`, divided by max(degree, 1). -/
def agg (h : (⟨S50000x128, .f32⟩ : BufTy).Contents (Elt F)) (src dst : (⟨S600000, .i32⟩ : BufTy).Contents (Elt F))
    (w : (⟨S600000, .f32⟩ : BufTy).Contents (Elt F)) (dg : (⟨S50000, .f32⟩ : BufTy).Contents (Elt F)) :
    (⟨S50000x128, .f32⟩ : BufTy).Contents (Elt F) :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (mulf
        (Host.gather gather_S50000x128_S600000x1_S600000x128_1_0_n_n_0_1_1128 h
          (broadcastInDim S600000x1 ![0] bcast_S600000_S600000x1_0 (wrapEdges src)))
        (broadcastInDim S600000x128 ![0, 1] bcast_S600000x1_S600000x128_0_1
          (broadcastInDim S600000x1 ![0] bcast_S600000_S600000x1_0 w))))
    (broadcastInDim S50000x128 ![0, 1] bcast_S50000x1_S50000x128_0_1
      (broadcastInDim S50000x1 ![0] bcast_S50000_S50000x1_0
        (maximumf dg (broadcastInDim S50000 ![] bcast_S_S50000 (constant S_ .f32 0x3F800000#32)))))

/-- The transpose of a weight matrix. -/
def tr (w : (⟨S128x128, .f32⟩ : BufTy).Contents (Elt F)) : (⟨S128x128, .f32⟩ : BufTy).Contents (Elt F) :=
  transpose S128x128 [1, 0] w transposes_S128x128_S128x128_1_0

/-- The whole network over the extended reals, as one function of @main's eleven arguments: the looked-up embeddings
    through the first layer (aggregation, linear maps, max with zero) and the second (aggregation, linear maps), the
    in-degree computed from the edges' destinations. -/
def sage (ids : (⟨S50000, .i32⟩ : BufTy).Contents (Elt Ideal)) (src dst : (⟨S600000, .i32⟩ : BufTy).Contents (Elt Ideal))
    (w : (⟨S600000, .f32⟩ : BufTy).Contents (Elt Ideal)) (emb : (⟨S50000x128, .f32⟩ : BufTy).Contents (Elt Ideal))
    (ws1 wn1 : (⟨S128x128, .f32⟩ : BufTy).Contents (Elt Ideal)) (b1 : (⟨S128, .f32⟩ : BufTy).Contents (Elt Ideal))
    (ws2 wn2 : (⟨S128x128, .f32⟩ : BufTy).Contents (Elt Ideal)) (b2 : (⟨S128, .f32⟩ : BufTy).Contents (Elt Ideal)) :
    S50000x128.Idx → EReal :=
  Cert.Sage.lin
    (Cert.Sage.linRelu (lookup emb ids) (agg (lookup emb ids) src dst w (deg dst)) (tr ws1) (tr wn1) b1)
    (agg (Cert.Sage.linRelu (lookup emb ids) (agg (lookup emb ids) src dst w (deg dst)) (tr ws1) (tr wn1) b1) src dst w (deg dst))
    (tr ws2) (tr wn2) b2

end Cert.KernelIdeal.HostFns

end
-- ==== Proof.KRun.lean ====
/-
  The kernel program's run, with every buffer named at the end.

  @main is four segments in order: a stretch of host operations, the first layer's region, a second stretch of host
  operations, the second layer's region. The buffer contents at the segment boundaries are a fold from the launch
  memory: after a host stretch, the stretch's operations applied; after a region, the region's arrays at what its
  write-backs leave and every other buffer as it was. Every weakly fair execution terminates, and in its final state
  every buffer that outlives the regions holds the last boundary's contents. In particular the result buffer does:
  that is the one fact the equivalence needs beyond the frame, and the arguments' preservation follows from the same
  statement.
-/
import proofs.«130195_j27522150433399_2_alg».proof.Proof.KernelIdealFrameP

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that outlives the regions ends
    at the contents of the last segment boundary. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core takes a ghost resource of its own
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- at launch a core holds its buffers at the launch memory, its generator register, and owes nothing
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbuf, -, Howes, -, Hreg, -⟩, -⟩
      imodintro
      isplitl [Hbuf]; · iexact Hbuf
      isplitl [Hreg]; · iexists _; iexact Hreg
      iexists ∅; iexact Howes)
    (QY := fun c s => ∀ b ∈ Pipeline.ucRefs τ sig, s.mem (((c : Thread nD τ)).1, b) = W4 m ρ c b)
    (hfin := fun c s' => by
      -- the last thread state holds every such buffer whole at the last boundary's contents: read them off the state
      iintro ⟨⟨Hbuf, -⟩, Hst⟩
      unfold StableHlo.held
      imodintro
      iapply (pointsTo_read_all (Pipeline.ucRefs τ sig) (fun b => (((c : Thread nD τ)).1, b)) (W4 m ρ c) s')
      isplitl [Hbuf] <;> iassumption)
    (hQ := fun _ h => h)

/-- The result buffer is among them. -/
theorem run_result : θ_run defs (onTc (τ := τ) (main (F := F))) ⟨m, fun _ => 0, ρ⟩
    (fun r => ∀ c : Dev nD,
      r.2.mem ((c : Thread nD τ).loc main_v52) = W4 m ρ c (Proc.devRef .tc main_v52)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c =>
    ⟨h c _ (mem_uc main_v52 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_all m ρ)

end Cert.KernelIdeal.Run

end
-- ==== Proof.KValue.lean ====
/-
  The kernel program's result buffer holds the whole network of its arguments.

  Following the buffer contents through @main's four segments:
    * the first stretch of host operations leaves the embedding lookup, the in-degree, the first aggregation and the two
      transposed weight matrices of the first layer, each a shared host stage of the launch arguments;
    * the first region leaves, in its output array, the first layer (with max against zero) of what it was entered with,
      and touches nothing else;
    * the second stretch leaves the second aggregation — of the first region's output, with the in-degree kept from the
      first stretch — and the second layer's two transposed matrices;
    * the second region leaves the second layer of what it was entered with in the result buffer.
  Composing the four gives the specification's function of the eleven arguments.
-/
import proofs.«130195_j27522150433399_2_alg».proof.Proof.KernelIdealFrameP
import proofs.«130195_j27522150433399_2_alg».proof.Proof.Region0
import proofs.«130195_j27522150433399_2_alg».proof.Proof.Region1
import proofs.«130195_j27522150433399_2_alg».proof.Proof.HostFns
import proofs.«130195_j27522150433399_2_alg».proof.Proof.KRun

noncomputable section

namespace Cert.KernelIdeal.Whole

open Cert.KernelIdeal Cert.KernelIdeal.Gen Cert.KernelIdeal.GenP Cert.KernelIdeal.HostFns Cert.Sage
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first stretch of host operations -/

theorem entry0_h (c : Dev nD) : V1 m ρ c main_v6 = lookup (m ((c : Thread nD τ).loc main_arg4)) (m ((c : Thread nD τ).loc main_arg0)) := by
  show StableHlo.after hostOps0 (W0 m ρ c) (Proc.devRef .tc main_v6) = _
  dsimp only [hostOps0]
  after_results
  rfl

theorem entry0_deg (c : Dev nD) : W1 m ρ c (Proc.devRef .tc main_v10) = deg (m ((c : Thread nD τ).loc main_arg2)) := by
  show StableHlo.after hostOps0 (W0 m ρ c) (Proc.devRef .tc main_v10) = _
  dsimp only [hostOps0]
  after_results
  rfl

theorem entry0_n (c : Dev nD) : V1 m ρ c main_v28 = agg (lookup (m ((c : Thread nD τ).loc main_arg4)) (m ((c : Thread nD τ).loc main_arg0))) (m ((c : Thread nD τ).loc main_arg1)) (m ((c : Thread nD τ).loc main_arg2)) (m ((c : Thread nD τ).loc main_arg3)) (deg (m ((c : Thread nD τ).loc main_arg2))) := by
  show StableHlo.after hostOps0 (W0 m ρ c) (Proc.devRef .tc main_v28) = _
  dsimp only [hostOps0]
  after_results_simp
  rfl

theorem entry0_ws (c : Dev nD) : V1 m ρ c main_v29 = tr (m ((c : Thread nD τ).loc main_arg5)) := by
  show StableHlo.after hostOps0 (W0 m ρ c) (Proc.devRef .tc main_v29) = _
  dsimp only [hostOps0]
  after_results
  rfl

theorem entry0_wn (c : Dev nD) : V1 m ρ c main_v30 = tr (m ((c : Thread nD τ).loc main_arg6)) := by
  show StableHlo.after hostOps0 (W0 m ρ c) (Proc.devRef .tc main_v30) = _
  dsimp only [hostOps0]
  after_results
  rfl

theorem entry0_b (c : Dev nD) : V1 m ρ c main_arg7 = (m ((c : Thread nD τ).loc main_arg7)) := by
  show StableHlo.after hostOps0 (W0 m ρ c) (Proc.devRef .tc main_arg7) = _
  dsimp only [hostOps0]
  after_results_simp <;> rfl

/-! ## After the first region: its output is the first layer of what it was entered with; nothing else moved -/

/-- The first layer's output, as a function of the launch arguments. -/
theorem after0 (c : Dev nD) :
    W2 m ρ c (Proc.devRef .tc main_v31)
      = linRelu (lookup (m ((c : Thread nD τ).loc main_arg4)) (m ((c : Thread nD τ).loc main_arg0))) (agg (lookup (m ((c : Thread nD τ).loc main_arg4)) (m ((c : Thread nD τ).loc main_arg0))) (m ((c : Thread nD τ).loc main_arg1)) (m ((c : Thread nD τ).loc main_arg2)) (m ((c : Thread nD τ).loc main_arg3)) (deg (m ((c : Thread nD τ).loc main_arg2))))
          (tr (m ((c : Thread nD τ).loc main_arg5))) (tr (m ((c : Thread nD τ).loc main_arg6))) (m ((c : Thread nD τ).loc main_arg7)) := by
  refine (W2_arr m ρ c 5).trans ((Region0.final (V1 m ρ) c).trans ?_)
  unfold Region0.out
  rw [entry0_h, entry0_n, entry0_ws, entry0_wn, entry0_b]

/-- The in-degree computed in the first stretch is still there. -/
theorem mid_deg (c : Dev nD) : W2 m ρ c (Proc.devRef .tc main_v10) = deg (m ((c : Thread nD τ).loc main_arg2)) :=
  (W2_of_ne m ρ c main_v10 (by decide)).trans (entry0_deg m ρ c)

theorem mid_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  dsimp only [hostOps0]
  after_results_simp <;> rfl

theorem mid_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results_simp <;> rfl

theorem mid_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]
  after_results_simp <;> rfl

theorem mid_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  dsimp only [hostOps0]
  after_results_simp <;> rfl

theorem mid_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  dsimp only [hostOps0]
  after_results_simp <;> rfl

theorem mid_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  dsimp only [hostOps0]
  after_results_simp <;> rfl

/-! ## After the second stretch of host operations -/

theorem entry1_h (c : Dev nD) : V3 m ρ c main_v31 = W2 m ρ c (Proc.devRef .tc main_v31) := by
  show StableHlo.after hostOps1 (W2 m ρ c) (Proc.devRef .tc main_v31) = _
  dsimp only [hostOps1]
  after_results_simp <;> rfl

theorem entry1_n (c : Dev nD) : V3 m ρ c main_v49 = agg (W2 m ρ c (Proc.devRef .tc main_v31)) (W2 m ρ c (Proc.devRef .tc main_arg1))
      (W2 m ρ c (Proc.devRef .tc main_arg2)) (W2 m ρ c (Proc.devRef .tc main_arg3)) (W2 m ρ c (Proc.devRef .tc main_v10)) := by
  show StableHlo.after hostOps1 (W2 m ρ c) (Proc.devRef .tc main_v49) = _
  dsimp only [hostOps1]
  after_results_simp
  rfl

theorem entry1_ws (c : Dev nD) : V3 m ρ c main_v50 = tr (W2 m ρ c (Proc.devRef .tc main_arg8)) := by
  show StableHlo.after hostOps1 (W2 m ρ c) (Proc.devRef .tc main_v50) = _
  dsimp only [hostOps1]
  after_results_simp
  rfl

theorem entry1_wn (c : Dev nD) : V3 m ρ c main_v51 = tr (W2 m ρ c (Proc.devRef .tc main_arg9)) := by
  show StableHlo.after hostOps1 (W2 m ρ c) (Proc.devRef .tc main_v51) = _
  dsimp only [hostOps1]
  after_results_simp
  rfl

theorem entry1_b (c : Dev nD) : V3 m ρ c main_arg10 = W2 m ρ c (Proc.devRef .tc main_arg10) := by
  show StableHlo.after hostOps1 (W2 m ρ c) (Proc.devRef .tc main_arg10) = _
  dsimp only [hostOps1]
  after_results_simp <;> rfl

/-! ## After the second region: the result -/

/-- The result buffer at the end of the last segment is the whole network of the launch arguments. -/
theorem result (c : Dev nD) :
    W4 m ρ c (Proc.devRef .tc main_v52) = sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((Region1.final (V3 m ρ) c).trans ?_)
  unfold Region1.out
  rw [entry1_h, entry1_n, entry1_ws, entry1_wn, entry1_b, after0, mid_deg, mid_arg1, mid_arg2, mid_arg3, mid_arg8, mid_arg9,
    mid_arg10]
  rfl

/-- Every weakly fair execution of the kernel program terminates without a fault, with the result buffer at the whole
    network of the arguments and the arguments as launched. -/
theorem run : θ_run defs (onTc (τ := τ) (main (F := Ideal))) ⟨m, fun _ => 0, ρ⟩
    (fun r => ∀ c : Dev nD,
      r.2.mem ((c : Thread nD τ).loc main_v52) = sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c).1.trans (result m ρ c), (h c).2⟩) (Cert.KernelIdeal.Run.run_result m ρ)

end Cert.KernelIdeal.Whole

end
-- ==== Proof.RefValue.lean ====
/-
  The reference computes the same function of its arguments.

  The reference's run ends with its result at the composition of its host operations. Read one operation at a time, a
  layer is: the product of the node features with a transposed weight matrix (at row `r`, column `q` the sum over the
  128 features `k` of feature `[r,k]` times weight `[k,q]`), plus the bias laid along every row, plus the product of
  the aggregated features with the other transposed weight matrix, and after the first layer the larger of that and
  zero. That is the layer's entry of the specification at the very operands the reference feeds it; the operands — the
  embedding lookup, the in-degree, the mean aggregation, the transposes — are the shared host stages applied to the
  arguments, the in-degree computed twice from the same destinations.
-/
import proofs.«130195_j27522150433399_2_alg».proof.Proof.Gen.ReferenceIdeal.Read
import proofs.«130195_j27522150433399_2_alg».proof.Proof.HostFns

noncomputable section

namespace Cert.ReferenceIdeal.RefValue

open Cert.ReferenceIdeal Cert.ReferenceIdeal.Read Idealize.ShloMosaic Idealize.ShloMosaic.ValueIdx
open Cert.KernelIdeal.HostFns Cert.Sage

/-! ## The index arithmetic of the stages: which entries of its operands an entry of a stage reads -/

theorem lhs30 (r : Fin 50000) (q k : Fin 128) : lidx_main_v30 (ix2 r q) k = ix2 r k :=
  funext fun a => Fin.ext (by match a with | ⟨0, _⟩ => rfl | ⟨1, _⟩ => rfl)
theorem rhs30 (r : Fin 50000) (q k : Fin 128) : ridx_main_v30 (ix2 r q) k = ix2 k q :=
  funext fun a => Fin.ext (by match a with | ⟨0, _⟩ => rfl | ⟨1, _⟩ => rfl)
theorem lhs35 (r : Fin 50000) (q k : Fin 128) : lidx_main_v35 (ix2 r q) k = ix2 r k :=
  funext fun a => Fin.ext (by match a with | ⟨0, _⟩ => rfl | ⟨1, _⟩ => rfl)
theorem rhs35 (r : Fin 50000) (q k : Fin 128) : ridx_main_v35 (ix2 r q) k = ix2 k q :=
  funext fun a => Fin.ext (by match a with | ⟨0, _⟩ => rfl | ⟨1, _⟩ => rfl)
theorem bias32 (r : Fin 50000) (q : Fin 128) : idx_main_v31 (idx_main_v32 (ix2 r q)) = ix1 q :=
  funext fun a => Fin.ext (by match a with | ⟨0, _⟩ => rfl)
theorem lhs61 (r : Fin 50000) (q k : Fin 128) : lidx_main_v61 (ix2 r q) k = ix2 r k :=
  funext fun a => Fin.ext (by match a with | ⟨0, _⟩ => rfl | ⟨1, _⟩ => rfl)
theorem rhs61 (r : Fin 50000) (q k : Fin 128) : ridx_main_v61 (ix2 r q) k = ix2 k q :=
  funext fun a => Fin.ext (by match a with | ⟨0, _⟩ => rfl | ⟨1, _⟩ => rfl)
theorem lhs66 (r : Fin 50000) (q k : Fin 128) : lidx_main_v66 (ix2 r q) k = ix2 r k :=
  funext fun a => Fin.ext (by match a with | ⟨0, _⟩ => rfl | ⟨1, _⟩ => rfl)
theorem rhs66 (r : Fin 50000) (q k : Fin 128) : ridx_main_v66 (ix2 r q) k = ix2 k q :=
  funext fun a => Fin.ext (by match a with | ⟨0, _⟩ => rfl | ⟨1, _⟩ => rfl)
theorem bias63 (r : Fin 50000) (q : Fin 128) : idx_main_v62 (idx_main_v63 (ix2 r q)) = ix1 q :=
  funext fun a => Fin.ext (by match a with | ⟨0, _⟩ => rfl)

/-! ## The two layers, each as the specification's layer of the stages it is fed -/

/-- The first layer's output (after max with zero). -/
theorem layer1 (x0 : (⟨S50000, .i32⟩ : BufTy).Contents (Elt Ideal)) (x1 x2 : (⟨S600000, .i32⟩ : BufTy).Contents (Elt Ideal))
    (x3 : (⟨S600000, .f32⟩ : BufTy).Contents (Elt Ideal)) (x4 : (⟨S50000x128, .f32⟩ : BufTy).Contents (Elt Ideal))
    (x5 x6 : (⟨S128x128, .f32⟩ : BufTy).Contents (Elt Ideal)) (x7 : (⟨S128, .f32⟩ : BufTy).Contents (Elt Ideal)) :
    val_main_v37 (F := Ideal) x0 x1 x2 x3 x4 x5 x6 x7
      = linRelu (val_main_v6 (F := Ideal) x0 x4) (val_main_v28 (F := Ideal) x0 x1 x2 x3 x4)
          (val_main_v29 (F := Ideal) x5) (val_main_v34 (F := Ideal) x6) x7 := by
  funext i
  obtain ⟨r, q, rfl⟩ : ∃ (r : Fin 50000) (q : Fin 128), i = ix2 r q := ⟨i 0, i 1, eq_ix2 i⟩
  rw [val_main_v37_apply, val_main_v36_apply, val_main_v33_apply, val_main_v30_apply, val_main_v35_apply,
    val_main_v32_apply, val_main_v31_apply, val_main_call0_v0_apply, val_main_call0_cst_apply]
  simp only [lhs30, rhs30, lhs35, rhs35, bias32]
  rfl

/-- The second layer's output: the result. -/
theorem layer2 (x0 : (⟨S50000, .i32⟩ : BufTy).Contents (Elt Ideal)) (x1 x2 : (⟨S600000, .i32⟩ : BufTy).Contents (Elt Ideal))
    (x3 : (⟨S600000, .f32⟩ : BufTy).Contents (Elt Ideal)) (x4 : (⟨S50000x128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal)) :
    val_main_v67 (F := Ideal) x0 x1 x2 x3 x4 x5 x6 x7 x8 x9 x10
      = lin (val_main_v37 (F := Ideal) x0 x1 x2 x3 x4 x5 x6 x7) (val_main_v59 (F := Ideal) x0 x1 x2 x3 x4 x5 x6 x7)
          (val_main_v60 (F := Ideal) x8) (val_main_v65 (F := Ideal) x9) x10 := by
  funext i
  obtain ⟨r, q, rfl⟩ : ∃ (r : Fin 50000) (q : Fin 128), i = ix2 r q := ⟨i 0, i 1, eq_ix2 i⟩
  rw [val_main_v67_apply, val_main_v64_apply, val_main_v61_apply, val_main_v66_apply,
    val_main_v63_apply, val_main_v62_apply]
  simp only [lhs61, rhs61, lhs66, rhs66, bias63]
  rfl

/-! ## The operands are the shared host stages of the arguments -/

theorem lookup_eq (x0 : (⟨S50000, .i32⟩ : BufTy).Contents (Elt Ideal)) (x4 : (⟨S50000x128, .f32⟩ : BufTy).Contents (Elt Ideal)) :
    val_main_v6 (F := Ideal) x0 x4 = lookup x4 x0 := rfl

theorem deg_eq (x2 : (⟨S600000, .i32⟩ : BufTy).Contents (Elt Ideal)) : val_main_v23 (F := Ideal) x2 = deg x2 := rfl

theorem deg_eq' (x2 : (⟨S600000, .i32⟩ : BufTy).Contents (Elt Ideal)) : val_main_v54 (F := Ideal) x2 = deg x2 := rfl

theorem agg1_eq (x0 : (⟨S50000, .i32⟩ : BufTy).Contents (Elt Ideal)) (x1 x2 : (⟨S600000, .i32⟩ : BufTy).Contents (Elt Ideal))
    (x3 : (⟨S600000, .f32⟩ : BufTy).Contents (Elt Ideal)) (x4 : (⟨S50000x128, .f32⟩ : BufTy).Contents (Elt Ideal)) :
    val_main_v28 (F := Ideal) x0 x1 x2 x3 x4 = agg (val_main_v6 (F := Ideal) x0 x4) x1 x2 x3 (val_main_v23 (F := Ideal) x2) := rfl

theorem agg2_eq (x0 : (⟨S50000, .i32⟩ : BufTy).Contents (Elt Ideal)) (x1 x2 : (⟨S600000, .i32⟩ : BufTy).Contents (Elt Ideal))
    (x3 : (⟨S600000, .f32⟩ : BufTy).Contents (Elt Ideal)) (x4 : (⟨S50000x128, .f32⟩ : BufTy).Contents (Elt Ideal))
    (x5 x6 : (⟨S128x128, .f32⟩ : BufTy).Contents (Elt Ideal)) (x7 : (⟨S128, .f32⟩ : BufTy).Contents (Elt Ideal)) :
    val_main_v59 (F := Ideal) x0 x1 x2 x3 x4 x5 x6 x7
      = agg (val_main_v37 (F := Ideal) x0 x1 x2 x3 x4 x5 x6 x7) x1 x2 x3 (val_main_v54 (F := Ideal) x2) := rfl

theorem tr_eq (x : (⟨S128x128, .f32⟩ : BufTy).Contents (Elt Ideal)) :
    val_main_v29 (F := Ideal) x = tr x ∧ val_main_v34 (F := Ideal) x = tr x ∧ val_main_v60 (F := Ideal) x = tr x
      ∧ val_main_v65 (F := Ideal) x = tr x := ⟨rfl, rfl, rfl, rfl⟩

/-- The reference's result is the whole network of its arguments. -/
theorem result_eq (x0 : (⟨S50000, .i32⟩ : BufTy).Contents (Elt Ideal)) (x1 x2 : (⟨S600000, .i32⟩ : BufTy).Contents (Elt Ideal))
    (x3 : (⟨S600000, .f32⟩ : BufTy).Contents (Elt Ideal)) (x4 : (⟨S50000x128, .f32⟩ : BufTy).Contents (Elt Ideal))
    (x5 x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal)) :
    val_main_v67 (F := Ideal) x0 x1 x2 x3 x4 x5 x6 x7 x8 x9 x10 = sage x0 x1 x2 x3 x4 x5 x6 x7 x8 x9 x10 := by
  rw [layer2, agg2_eq, layer1, agg1_eq, lookup_eq, deg_eq, deg_eq', (tr_eq x5).1, (tr_eq x6).2.1, (tr_eq x8).2.2.1, (tr_eq x9).2.2.2]
  rfl

end Cert.ReferenceIdeal.RefValue

end
-- ==== Proof.lean ====
/-
  Two layers of mean-aggregating graph convolution (50000 nodes, 600000 weighted edges, 128 features): the kernel program
  against its reference, over the extended reals.

  Both programs look the node embeddings up, count each node's incoming edges, and twice (i) average the neighbours'
  weighted features — gather along the edges, scale by the edge weight, add up at the destination, divide by the larger
  of the in-degree and one — and (ii) map node and neighbour features through two 128 × 128 matrices,
      (h · Wsᵀ + b) + n · Wnᵀ,
  the first time followed by max(·, 0). They differ in where (ii) runs and in nothing else: the reference computes it on
  the host with two matrix products over all 50000 rows; the kernel program computes it in a region of ten grid points,
  each taking 5000 rows, and counts the in-degree once instead of twice. Step (i) and the transposes are the same host
  operations in both programs, so they are carried as opaque functions of their operands (Proof/HostFns.lean). Over the
  extended reals a matrix product into a zero accumulator and a host product are the same finite sum at every entry, and
  a layer's entry at a row reads only that row of its feature operands, so the ten blocks are the rows of one array
  (Proof/Region0.lean, Proof/Region1.lean). No law that needs finiteness is used: the precondition is never opened.

  The three frames are the programs' runs; the idealization rewrote nothing, so `preserves` is trivial; the algebraic
  claim takes, for both programs, the whole network `HostFns.sage` of the arguments as the common result.
-/
import proofs.«130195_j27522150433399_2_alg».proof.Defs
import proofs.«130195_j27522150433399_2_alg».proof.Proof.Gen.Kernel
import proofs.«130195_j27522150433399_2_alg».proof.Proof.KernelFrameP
import proofs.«130195_j27522150433399_2_alg».proof.Proof.Gen.KernelIdeal
import proofs.«130195_j27522150433399_2_alg».proof.Proof.KernelIdealFrameP
import proofs.«130195_j27522150433399_2_alg».proof.Proof.Gen.ReferenceIdeal
import proofs.«130195_j27522150433399_2_alg».proof.Proof.Gen.Pre_finite_inputs
import proofs.«130195_j27522150433399_2_alg».proof.Proof.Gen.ReferenceIdeal.Run
import proofs.«130195_j27522150433399_2_alg».proof.Proof.Gen.ReferenceIdeal.Read
import proofs.«130195_j27522150433399_2_alg».proof.Proof.KValue
import proofs.«130195_j27522150433399_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the whole network of the (agreeing) arguments in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
